-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x8 : Shape := ⟨2, ![4096, 8]⟩
abbrev S2097152 : Shape := ⟨1, ![2097152]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x8 .f32) (main_arg2 : IVec S2097152 32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x8 : Shape := ⟨2, ![4096, 8]⟩
abbrev S2097152 : Shape := ⟨1, ![2097152]⟩
abbrev S4096 : Shape := ⟨1, ![4096]⟩
abbrev S_ : Shape := ⟨0, ![]⟩
abbrev S2097152x1 : Shape := ⟨2, ![2097152, 1]⟩
abbrev S2097152x8 : Shape := ⟨2, ![2097152, 8]⟩
abbrev S4096x4096 : Shape := ⟨2, ![4096, 4096]⟩
abbrev S8192x4096 : Shape := ⟨2, ![8192, 4096]⟩
abbrev S1x4096 : Shape := ⟨2, ![1, 4096]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩

abbrev nBuf : Space → Nat
  | .hbm => 19
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x8, .f32⟩
  | .hbm, ⟨2, _⟩ => ⟨S2097152, .i32⟩
  | .hbm, ⟨3, _⟩ => ⟨S4096, .f32⟩
  | .hbm, ⟨4, _⟩ => ⟨S4096x8, .bf16⟩
  | .hbm, ⟨5, _⟩ => ⟨S_, .i32⟩
  | .hbm, ⟨6, _⟩ => ⟨S2097152, .i32⟩
  | .hbm, ⟨7, _⟩ => ⟨S2097152, .i1⟩
  | .hbm, ⟨8, _⟩ => ⟨S_, .i32⟩
  | .hbm, ⟨9, _⟩ => ⟨S2097152, .i32⟩
  | .hbm, ⟨10, _⟩ => ⟨S2097152, .i32⟩
  | .hbm, ⟨11, _⟩ => ⟨S2097152, .i32⟩
  | .hbm, ⟨12, _⟩ => ⟨S2097152x1, .i32⟩
  | .hbm, ⟨13, _⟩ => ⟨S2097152x8, .bf16⟩
  | .hbm, ⟨14, _⟩ => ⟨S4096x4096, .bf16⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S4x2048x4096, .f32⟩
  | .local _ .vmem, ⟨0, _⟩ => ⟨S1024x256, .f32⟩
  | .local _ .vmem, ⟨1, _⟩ => ⟨S1024x256, .f32⟩
  | .local _ .vmem, ⟨2, _⟩ => ⟨S2048x256, .bf16⟩
  | .local _ .vmem, ⟨3, _⟩ => ⟨S2048x256, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  shapeCasts_S4x2048x4096_S8192x4096 : S4x2048x4096.ShapeCasts S8192x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  gather_S4096x8_S2097152x1_S2097152x8_1_0_n_n_0_1_18_wf : GatherDims.WF S4096x8 S2097152x1 S2097152x8 [1] [0] [] [0] [] 1 ![1, 8]
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .f32 = 32 ∨ (Rect.block (s := S8192x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x4096.size a
  hwx0_1 : ∀ i : grid0.Coords, EltTy.bits .bf16 = 32 ∨ (Rect.block (s := S4096x4096) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def gather_S4096x8_S2097152x1_S2097152x8_1_0_n_n_0_1_18 : GatherDims S4096x8 S2097152x1 S2097152x8 where
  offsetDims := [1]
  collapsedSliceDims := [0]
  operandBatchingDims := []
  startIndicesBatchingDims := []
  startIndexMap := [0]
  indexVectorDim := 1
  sliceSizes := ![1, 8]
  wf := gather_S4096x8_S2097152x1_S2097152x8_1_0_n_n_0_1_18_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v9) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x8 : Shape := ⟨2, ![4096, 8]⟩
abbrev S2097152 : Shape := ⟨1, ![2097152]⟩
abbrev S4096 : Shape := ⟨1, ![4096]⟩
abbrev S_ : Shape := ⟨0, ![]⟩
abbrev S2097152x1 : Shape := ⟨2, ![2097152, 1]⟩
abbrev S2097152x8 : Shape := ⟨2, ![2097152, 8]⟩
abbrev S16777216 : Shape := ⟨1, ![16777216]⟩
abbrev S4096x4096 : Shape := ⟨2, ![4096, 4096]⟩
abbrev S1x1x4096 : Shape := ⟨3, ![1, 1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x8, .f32⟩
  | .hbm, ⟨2, _⟩ => ⟨S2097152, .i32⟩
  | .hbm, ⟨3, _⟩ => ⟨S4096, .f32⟩
  | .hbm, ⟨4, _⟩ => ⟨S_, .i32⟩
  | .hbm, ⟨5, _⟩ => ⟨S2097152, .i32⟩
  | .hbm, ⟨6, _⟩ => ⟨S2097152, .i1⟩
  | .hbm, ⟨7, _⟩ => ⟨S_, .i32⟩
  | .hbm, ⟨8, _⟩ => ⟨S2097152, .i32⟩
  | .hbm, ⟨9, _⟩ => ⟨S2097152, .i32⟩
  | .hbm, ⟨10, _⟩ => ⟨S2097152, .i32⟩
  | .hbm, ⟨11, _⟩ => ⟨S2097152x1, .i32⟩
  | .hbm, ⟨12, _⟩ => ⟨S2097152x8, .f32⟩
  | .hbm, ⟨13, _⟩ => ⟨S16777216, .f32⟩
  | .hbm, ⟨14, _⟩ => ⟨S4096x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S16777216 : S2097152x8.ShapeCasts S16777216
  shapeCasts_S16777216_S4096x4096 : S16777216.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4096x8_S2097152x1_S2097152x8_1_0_n_n_0_1_18_wf : GatherDims.WF S4096x8 S2097152x1 S2097152x8 [1] [0] [] [0] [] 1 ![1, 8]
  dot_S4x2048x4096_S4096x4096_S4x2048x4096_2_1_01_0_n_n_wf : DotDims.WF S4x2048x4096 S4096x4096 S4x2048x4096 [2] [1] [0, 1] [0] [] []

variable [Facts₀]

def gather_S4096x8_S2097152x1_S2097152x8_1_0_n_n_0_1_18 : GatherDims S4096x8 S2097152x1 S2097152x8 where
  offsetDims := [1]
  collapsedSliceDims := [0]
  operandBatchingDims := []
  startIndicesBatchingDims := []
  startIndexMap := [0]
  indexVectorDim := 1
  sliceSizes := ![1, 8]
  wf := gather_S4096x8_S2097152x1_S2097152x8_1_0_n_n_0_1_18_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one run of the kernel body leaves behind, as values.

  The body is run in three ways, according to where the grid point stands along the contraction axis of its output
  block (16 steps per block): at the FIRST step the running block is reset to zero and then accumulates one product;
  at a MIDDLE step it accumulates one product onto what the step before left; at the LAST step it does the same and
  also stores the running block plus the bias row into the output block.  In each case the body's stores cover the
  whole buffer with one value, so what the buffer holds afterwards is that value, and the loads it is built from
  read the whole input blocks: the four lemmas below say so, for any float instance.
-/
import proofs.«166751_j56427280335117_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords) (a3 : Memref sig .tc .vmem S1024x256 .f32) (h3 : a3.IsWhole)
  (a4 : Memref sig .tc .vmem S2048x256 .bf16) (h4 : a4.IsWhole) (a5 : Memref sig .tc .vmem S1x2048 .f32) (h5 : a5.IsWhole)
  (a6 : Memref sig .tc .vmem S1024x2048 .f32) (h6 : a6.IsWhole) (a7 : Memref sig .tc .vmem S1024x2048 .f32) (h7 : a7.IsWhole)

/-- A block's FIRST contraction step: the running block is reset to the zero block and then takes one accumulation step. -/
theorem scratch_first (hc0 : cond0_0 i) (hc1 : ¬cond0_1 i) (x0 : Vec F S1024x256 .f32) (x1 : Vec F S2048x256 .bf16) (x2 : Vec F S1x2048 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x256) hz,
    View.ld_unit_zero (S := S2048x256) hz, View.ld_unit_zero (S := S1024x2048) hz]

/-- A MIDDLE contraction step: one accumulation step over what the step before left. -/
theorem scratch_middle (hc0 : ¬cond0_0 i) (hc1 : ¬cond0_1 i) (x0 : Vec F S1024x256 .f32) (x1 : Vec F S2048x256 .bf16) (x2 : Vec F S1x2048 .f32) (xs0 : Vec F S1024x2048 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S1024x256) hz,
    View.ld_unit_zero (S := S2048x256) hz, View.ld_unit_zero (S := S1024x2048) hz]

/-- The LAST contraction step leaves the same accumulation step in the running block, -/
theorem scratch_last (hc0 : ¬cond0_0 i) (hc1 : cond0_1 i) (x0 : Vec F S1024x256 .f32) (x1 : Vec F S2048x256 .bf16) (x2 : Vec F S1x2048 .f32) (xs0 : Vec F S1024x2048 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x256) hz,
    View.ld_unit_zero (S := S2048x256) hz, View.ld_unit_zero (S := S1024x2048) hz]

/-- and stores that block plus the bias row into the output block. -/
theorem out_last (hc0 : ¬cond0_0 i) (hc1 : cond0_1 i) (x0 : Vec F S1024x256 .f32) (x1 : Vec F S2048x256 .bf16) (x2 : Vec F S1x2048 .f32) (xs0 : Vec F S1024x2048 .f32) :
    out0_C_3 c i a3 h3 a4 h4 a5 h5 a6 h6 a7 h7 hc0 hc1 x0 x1 x2 xs0 = k0_pay3 x2 (k0_pay2 x0 x1 xs0) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x2048) _ hz]
  simp only [View.readAt_eq_ld, h3.read_unread, h4.read_unread, h5.read_unread, h7.read_unread,
    View.ld_unit_zero (S := S1024x256) hz, View.ld_unit_zero (S := S2048x256) hz, View.ld_unit_zero (S := S1x2048) hz,
    View.ld_unit_zero (S := S1024x2048) hz]

end Cert.KernelIdeal.Pieces
end
-- ==== Proof.PiecesAt.lean ====
/-
  What each kind of grid point leaves, over the point's own blocks.

  The case lemmas of module Pieces, instantiated at a grid point `t`: the body runs on the point's staging buffers
  and input blocks, and, except at a block's first contraction step, on the running block the point before left.
-/
import proofs.«166751_j56427280335117_2_alg».proof.Proof.Pieces

noncomputable section

open Idealize.ShloMosaic Idealize.ShloMosaic.TcCoe Idealize.SL.Sem
open Idealize.ShloMosaic.Pipeline (Dat)

namespace Cert.KernelIdeal.PiecesAt

open Cert.KernelIdeal Cert.KernelIdeal.Gen

variable {F : FTy → Type} [FloatOps F]
variable (m : (ℓ : Loc nD τ sig) → Buf (Elt F) ℓ)

/-- A block's first contraction step: reset, then one accumulation step over the point's blocks. -/
theorem scratch_first (c : Dev nD) (t : Fin cfg0.N) (h0 : t.val % 16 = 0) (h1 : ¬t.val % 16 = 15) :
    (outsAt0 m c t.val t.isLt).2 = k0_pay2 (iblk m c 0 t) (iblk m c 1 t) (k0_pay1 (F := F)) := by
  rw [outsAt0_A m c t h0 h1]
  dsimp only
  exact Pieces.scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- A middle step: one accumulation step over what the point before left. -/
theorem scratch_middle (c : Dev nD) (t : Fin cfg0.N) (h0 : ¬t.val % 16 = 0) (h1 : ¬t.val % 16 = 15) :
    (outsAt0 m c t.val t.isLt).2 = k0_pay2 (iblk m c 0 t) (iblk m c 1 t)
      (outsAt0 m c (t.val - 1) (Nat.lt_of_le_of_lt (Nat.sub_le _ _) t.isLt)).2 := by
  rw [outsAt0_B m c t h0 h1]
  dsimp only
  exact Pieces.scratch_middle c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (iblk m c 0 t) (iblk m c 1 t) (iblk m c 2 t) (outsAt0 m c (t.val - 1) (Nat.lt_of_le_of_lt (Nat.sub_le _ _) t.isLt)).2

/-- A last step leaves the same in the running block, -/
theorem scratch_last (c : Dev nD) (t : Fin cfg0.N) (h0 : ¬t.val % 16 = 0) (h1 : t.val % 16 = 15) :
    (outsAt0 m c t.val t.isLt).2 = k0_pay2 (iblk m c 0 t) (iblk m c 1 t)
      (outsAt0 m c (t.val - 1) (Nat.lt_of_le_of_lt (Nat.sub_le _ _) t.isLt)).2 := by
  rw [outsAt0_C m c t h0 h1]
  dsimp only
  exact Pieces.scratch_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-- and the output block is that running block plus the bias row. -/
theorem out_last (c : Dev nD) (t : Fin cfg0.N) (h0 : ¬t.val % 16 = 0) (h1 : t.val % 16 = 15) :
    (outsAt0 m c t.val t.isLt).1 = k0_pay3 (iblk m c 2 t) (outsAt0 m c t.val t.isLt).2 := by
  rw [outsAt0_C m c t h0 h1]
  dsimp only
  rw [Pieces.out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2,
    Pieces.scratch_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2]

end Cert.KernelIdeal.PiecesAt

end
-- ==== Proof.Payload.lean ====
/-
  The three stored values of the kernel body, read at one index over the extended reals.

  The body keeps a running block `acc` of shape [1024, 2048]: at a block's first contraction step it is reset to the zero
  block; at every step it becomes `acc + a · bᵀ`, where `a` is a [1024, 256] block of the left operand and `b` a
  [2048, 256] block of the right operand, both contracted along their second axis (the change of float format of `a`
  is the identity on the extended reals, and the matrix unit's accumulator operand is the zero block, so the product
  term at `(r, q)` is the plain sum `∑ k, a (r, k) * b (q, k)`); at the last step the output block is `acc + bias`,
  the bias row [1, 2048] repeated down the rows.
-/
import proofs.«166751_j56427280335117_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The reset block is zero at every index. -/
theorem reset_apply (y : S1024x2048.Idx) : k0_pay1 (F := Ideal) y = 0 := by
  unfold k0_pay1
  simp only [shapeCast_self]
  exact Ideal.ofBits_zero_f32

/-- The left operand's index at output index `(r, q)` and contraction index `k`: row `r`, column `k`. -/
theorem lhs_idx (r : Fin 1024) (q : Fin 2048) (k : Fin 256) :
    dot_S1024x256_S2048x256_S1024x2048_1_1_0_0_n_n.lhsIdx (ix2 r q)
      ((contrEquiv1 dot_S1024x256_S2048x256_S1024x2048_1_1_0_0_n_n 256 rfl rfl).symm k) = ix2 r k := by
  have hk := contrEquiv1_symm_val dot_S1024x256_S2048x256_S1024x2048_1_1_0_0_n_n 256 rfl rfl k
  funext a
  apply Fin.ext
  match a with
  | ⟨0, _⟩ =>
    show (dot_S1024x256_S2048x256_S1024x2048_1_1_0_0_n_n.lhsIdx (ix2 r q) _ 0).val = r.val
    unfold DotDims.lhsIdx
    rw [dif_neg (show ¬(0 : Fin S1024x256.rank) ∈ dot_S1024x256_S2048x256_S1024x2048_1_1_0_0_n_n.lhsBatch by decide),
      dif_pos (show (0 : Fin S1024x256.rank) ∈ dot_S1024x256_S2048x256_S1024x2048_1_1_0_0_n_n.lhsNonContracting by decide)]
    rfl
  | ⟨1, _⟩ =>
    exact (dot_S1024x256_S2048x256_S1024x2048_1_1_0_0_n_n.lhsIdx_val_of_single rfl (ix2 r q) _).trans hk

/-- The right operand's index at output index `(r, q)` and contraction index `k`: row `q`, column `k`. -/
theorem rhs_idx (r : Fin 1024) (q : Fin 2048) (k : Fin 256) :
    dot_S1024x256_S2048x256_S1024x2048_1_1_0_0_n_n.rhsIdx (ix2 r q)
      ((contrEquiv1 dot_S1024x256_S2048x256_S1024x2048_1_1_0_0_n_n 256 rfl rfl).symm k) = ix2 q k := by
  have hk := contrEquiv1_symm_val dot_S1024x256_S2048x256_S1024x2048_1_1_0_0_n_n 256 rfl rfl k
  funext a
  apply Fin.ext
  match a with
  | ⟨0, _⟩ =>
    show (dot_S1024x256_S2048x256_S1024x2048_1_1_0_0_n_n.rhsIdx (ix2 r q) _ 0).val = q.val
    unfold DotDims.rhsIdx
    rw [dif_neg (show ¬(0 : Fin S2048x256.rank) ∈ dot_S1024x256_S2048x256_S1024x2048_1_1_0_0_n_n.rhsBatch by decide),
      dif_pos (show (0 : Fin S2048x256.rank) ∈ dot_S1024x256_S2048x256_S1024x2048_1_1_0_0_n_n.rhsNonContracting by decide)]
    rfl
  | ⟨1, _⟩ =>
    exact (dot_S1024x256_S2048x256_S1024x2048_1_1_0_0_n_n.rhsIdx_val_of_single rfl (ix2 r q) _).trans hk

/-- One accumulation step at an index: the running value plus the 256-term product sum of row `r` of the left block
    and row `q` of the right block. -/
theorem step_apply (a : FVec Ideal S1024x256 .f32) (b : FVec Ideal S2048x256 .bf16) (acc : FVec Ideal S1024x2048 .f32)
    (r : Fin 1024) (q : Fin 2048) :
    k0_pay2 (F := Ideal) a b acc (ix2 r q) = acc (ix2 r q) + ∑ k : Fin 256, a (ix2 r k) * b (ix2 q k) := by
  unfold k0_pay2
  simp only [shapeCast_self]
  refine congrArg (acc (ix2 r q) + ·) ?_
  refine (Ideal.matmul_constant_zero_apply dot_S1024x256_S2048x256_S1024x2048_1_1_0_0_n_n none
    (truncf .bf16 a bitsLt_bf16_f32) b (ix2 r q)).trans ?_
  rw [← Equiv.sum_comp (contrEquiv1 dot_S1024x256_S2048x256_S1024x2048_1_1_0_0_n_n 256 rfl rfl).symm]
  refine Finset.sum_congr rfl fun k _ => ?_
  rw [lhs_idx, rhs_idx]
  rfl

/-- The last step's output at an index: the running value plus the bias row's entry of that column. -/
theorem bias_apply (bias : FVec Ideal S1x2048 .f32) (acc : FVec Ideal S1024x2048 .f32) (r : Fin 1024) (q : Fin 2048) :
    k0_pay3 (F := Ideal) bias acc (ix2 r q) = acc (ix2 r q) + bias (ix2 (0 : Fin 1) q) := by
  unfold k0_pay3
  simp only [shapeCast_self]
  refine congrArg (acc (ix2 r q) + ·) ?_
  exact broadcastTo_apply bias broadcasts_S1x2048_S1024x2048 (ix2 r q) (ix2 (0 : Fin 1) q) (fun a => match a with
    | ⟨0, _⟩ => by show 0 = if (1 : Nat) = 1 then 0 else _; rw [if_pos rfl]
    | ⟨1, _⟩ => by show q.val = if (2048 : Nat) = 1 then 0 else q.val; rw [if_neg (by decide)])

end Cert.KernelIdeal.Payload

end
-- ==== Proof.LibBlockSum.lean ====
/-
  Regrouping a finite sum into consecutive blocks.

  A sum over the `N = m * n` indices `0, …, N - 1` is the sum, over the `m` blocks `j = 0, …, m - 1`, of the sums
  over the `n` consecutive indices `n * j, …, n * j + n - 1` of block `j`.  It holds in every additive commutative
  monoid — in particular over the extended reals, where a sum may be regrouped and reordered freely although
  cancellation and distributivity fail at the infinities.  The block index ranges over `Finset.range m` so that a
  running partial sum over the first `k + 1` blocks is `Finset.sum_range_succ` away from the one over the first `k`;
  the position inside `Fin N` is written modulo `N` so that the summand is a total function of the natural number `j`.
-/
import Mathlib

open scoped BigOperators

namespace Cert.LibBlockSum

/-- The sum over `Fin N`, `N = m * n`, block by block: block `j` holds the indices `n * j + k`, `k < n`. -/
theorem sum_range_blocks {M : Type*} [AddCommMonoid M] (m n N : ℕ) (hN : N = m * n) (hpos : 0 < N) (f : Fin N → M) :
    ∑ j ∈ Finset.range m, ∑ k : Fin n, f ⟨(n * j + k.val) % N, Nat.mod_lt _ hpos⟩ = ∑ i : Fin N, f i := by
  subst hN
  rw [Finset.sum_range, ← Fintype.sum_prod_type']
  refine Fintype.sum_equiv finProdFinEquiv _ _ (fun p => ?_)
  have hlt : p.2.val + n * p.1.val < m * n := by
    have := (finProdFinEquiv p).isLt
    rwa [finProdFinEquiv_apply_val] at this
  refine congrArg f (Fin.ext ?_)
  show (n * p.1.val + p.2.val) % (m * n) = (finProdFinEquiv p).val
  rw [finProdFinEquiv_apply_val, Nat.mod_eq_of_lt (by omega)]
  omega

end Cert.LibBlockSum
-- ==== Proof.Spec.lean ====
/-
  The function both programs compute, and the law that joins their two arrangements of it.

  With `X` the input as 8192 rows of 4096 entries, `W` the reconstructed 4096 × 4096 weight and `b` the bias, the
  result at row `R` and column `C` is `∑ i, X (R, i) * W (C, i) + b C`.  One program takes the sum over `i` at once;
  the other takes it in 16 consecutive blocks of 256 terms, adding block after block onto a running value that starts
  at zero.  Over the extended reals addition is commutative and associative (although not cancellative), so the
  blockwise sum is the whole sum: `sum_share`.  No finiteness of the entries is used.

  Positions are written modulo their axis' extent so that each is a total function of natural-number block numbers;
  for block numbers in range the reduction is the identity.
-/
import Idealize.ShloMosaic.Lib.ValueIdx
import Idealize.ShloMosaic.PureOps.Ideal
import proofs.«166751_j56427280335117_2_alg».proof.Proof.LibBlockSum

noncomputable section

open scoped BigOperators
open Idealize.ShloMosaic Idealize.ShloMosaic.ValueIdx

namespace Cert.Spec

/-- The input as rows. -/
abbrev SX : Shape := ⟨2, ![8192, 4096]⟩
/-- The weight, one row per output feature. -/
abbrev SW : Shape := ⟨2, ![4096, 4096]⟩
/-- The bias as one row. -/
abbrev SB : Shape := ⟨2, ![1, 4096]⟩
/-- The input and the result in their own shape. -/
abbrev S3 : Shape := ⟨3, ![4, 2048, 4096]⟩
/-- The bias in its own shape. -/
abbrev S1 : Shape := ⟨1, ![4096]⟩

/-- Position `k` of contraction block `j` (256 positions per block) along the contraction axis. -/
def kpos (j : ℕ) (k : Fin 256) : Fin 4096 := ⟨(256 * j + k.val) % 4096, Nat.mod_lt _ (by decide)⟩
/-- Row `r` of row block `p` (1024 rows per block). -/
def rowOf (p : ℕ) (r : Fin 1024) : Fin 8192 := ⟨(1024 * p + r.val) % 8192, Nat.mod_lt _ (by decide)⟩
/-- Column `q` of column block `p` (2048 columns per block). -/
def colOf (p : ℕ) (q : Fin 2048) : Fin 4096 := ⟨(2048 * p + q.val) % 4096, Nat.mod_lt _ (by decide)⟩

/-- Contraction block `j`'s share of entry `(R, C)` of `X · Wᵀ`. -/
def share (X : SX.Idx → EReal) (W : SW.Idx → EReal) (R : Fin 8192) (C : Fin 4096) (j : ℕ) : EReal :=
  ∑ k : Fin 256, X (ix2 R (kpos j k)) * W (ix2 C (kpos j k))

/-- Entry `(R, C)` of `X · Wᵀ`. -/
def rowDot (X : SX.Idx → EReal) (W : SW.Idx → EReal) (R : Fin 8192) (C : Fin 4096) : EReal :=
  ∑ i : Fin 4096, X (ix2 R i) * W (ix2 C i)

/-- The 16 blocks' shares add up to the entry. -/
theorem sum_share (X : SX.Idx → EReal) (W : SW.Idx → EReal) (R : Fin 8192) (C : Fin 4096) :
    ∑ j ∈ Finset.range 16, share X W R C j = rowDot X W R C :=
  Cert.LibBlockSum.sum_range_blocks 16 256 4096 rfl (by decide) (fun i => X (ix2 R i) * W (ix2 C i))

/-- The result as rows: `X · Wᵀ` plus the bias row. -/
def linearRows (X : SX.Idx → EReal) (W : SW.Idx → EReal) (B : SB.Idx → EReal) : SX.Idx → EReal := fun I =>
  rowDot X W ⟨(I 0).val, (I 0).isLt⟩ ⟨(I 1).val, (I 1).isLt⟩ + B (ix2 (0 : Fin 1) ⟨(I 1).val, (I 1).isLt⟩)

/-- The result in its own shape: `out (b, s, o) = ∑ i, x (b, s, i) * W (o, i) + bias o`. -/
def linear (x : S3.Idx → EReal) (W : SW.Idx → EReal) (bias : S1.Idx → EReal) : S3.Idx → EReal := fun i =>
  (∑ k : Fin 4096, x (ix3 ⟨(i 0).val, (i 0).isLt⟩ ⟨(i 1).val, (i 1).isLt⟩ k) * W (ix2 ⟨(i 2).val, (i 2).isLt⟩ k))
    + bias (ix1 ⟨(i 2).val, (i 2).isLt⟩)

end Cert.Spec

end
-- ==== Proof.Blocks.lean ====
/-
  The blocks the body reads, as entries of the arrays the launch finds.

  Grid point `t` (of 256, the contraction step innermost) stands at row block `t / 32`, column block `t / 16 % 2` and
  contraction step `t % 16`.  There the body is handed rows `1024 (t / 32) + r`, columns `256 (t % 16) + k` of the
  input as rows; rows `2048 (t / 16 % 2) + q`, columns `256 (t % 16) + k` of the weight; and columns
  `2048 (t / 16 % 2) + q` of the bias row.  The three arrays themselves were written by the operations before the
  launch: the input re-laid as 8192 rows, the bias as one row, and the weight gathered from the codebook and re-laid.
-/
import proofs.«166751_j56427280335117_2_alg».proof.Proof.Gen.KernelIdeal.Frame
import proofs.«166751_j56427280335117_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Spec

variable {F : FTy → Type} [FloatOps F]
variable (m : (ℓ : Loc nD τ sig) → Buf (Elt F) ℓ)

/-- The windows' block numbers at a grid point, decided over the grid. -/
theorem idx_facts : ∀ t : Fin cfg0.N,
    win0_0.index t (0 : Fin 2) = t.val / 32 ∧ win0_0.index t (1 : Fin 2) = t.val % 16
    ∧ win0_1.index t (0 : Fin 2) = t.val / 16 % 2 ∧ win0_1.index t (1 : Fin 2) = t.val % 16
    ∧ win0_2.index t (0 : Fin 2) = 0 ∧ win0_2.index t (1 : Fin 2) = t.val / 16 % 2
    ∧ win0_3.index t (0 : Fin 2) = t.val / 32 ∧ win0_3.index t (1 : Fin 2) = t.val / 16 % 2 :=
  (by decide +kernel : ∀ t : Fin grid0.N, _)

/-- The input block at point `t`. -/
theorem xblk_apply (c : Dev nD) (t : Fin cfg0.N) (r : Fin 1024) (k : Fin 256) :
    (iblk m c 0 t : Vec F S1024x256 .f32) (ix2 r k)
      = (V m c main_v9 : S8192x4096.Idx → Elt F .f32) (ix2 (rowOf (t.val / 32) r) (kpos (t.val % 16) k)) := by
  obtain ⟨e0, e1, -⟩ := idx_facts t
  have hN : t.val < 256 := lt_of_lt_of_eq t.isLt (show cfg0.N = 256 from N_0)
  have hr := r.isLt
  have hk := k.isLt
  unfold iblk
  rw [View.read_apply]
  show V m c main_v9 _ = V m c main_v9 _
  congr 1
  funext a
  apply Fin.ext
  match a with
  | ⟨0, _⟩ => show win0_0.index t 0 * 1024 + 1 * r.val = (1024 * (t.val / 32) + r.val) % 8192; rw [e0]; omega
  | ⟨1, _⟩ => show win0_0.index t 1 * 256 + 1 * k.val = (256 * (t.val % 16) + k.val) % 4096; rw [e1]; omega

/-- The weight block at point `t`. -/
theorem wblk_apply (c : Dev nD) (t : Fin cfg0.N) (q : Fin 2048) (k : Fin 256) :
    (iblk m c 1 t : Vec F S2048x256 .bf16) (ix2 q k)
      = (V m c main_v8 : S4096x4096.Idx → Elt F .bf16) (ix2 (colOf (t.val / 16 % 2) q) (kpos (t.val % 16) k)) := by
  obtain ⟨-, -, e0, e1, -⟩ := idx_facts t
  have hN : t.val < 256 := lt_of_lt_of_eq t.isLt (show cfg0.N = 256 from N_0)
  have hq := q.isLt
  have hk := k.isLt
  unfold iblk
  rw [View.read_apply]
  show V m c main_v8 _ = V m c main_v8 _
  congr 1
  funext a
  apply Fin.ext
  match a with
  | ⟨0, _⟩ => show win0_1.index t 0 * 2048 + 1 * q.val = (2048 * (t.val / 16 % 2) + q.val) % 4096; rw [e0]; omega
  | ⟨1, _⟩ => show win0_1.index t 1 * 256 + 1 * k.val = (256 * (t.val % 16) + k.val) % 4096; rw [e1]; omega

/-- The bias block at point `t`. -/
theorem bblk_apply (c : Dev nD) (t : Fin cfg0.N) (q : Fin 2048) :
    (iblk m c 2 t : Vec F S1x2048 .f32) (ix2 (0 : Fin 1) q)
      = (V m c main_v10 : S1x4096.Idx → Elt F .f32) (ix2 (0 : Fin 1) (colOf (t.val / 16 % 2) q)) := by
  obtain ⟨-, -, -, -, e0, e1, -⟩ := idx_facts t
  have hN : t.val < 256 := lt_of_lt_of_eq t.isLt (show cfg0.N = 256 from N_0)
  have hq := q.isLt
  unfold iblk
  rw [View.read_apply]
  show V m c main_v10 _ = V m c main_v10 _
  congr 1
  funext a
  apply Fin.ext
  match a with
  | ⟨0, _⟩ => show win0_2.index t 0 * 1 + 1 * 0 = 0; rw [e0]
  | ⟨1, _⟩ => show win0_2.index t 1 * 2048 + 1 * q.val = (2048 * (t.val / 16 % 2) + q.val) % 4096; rw [e1]; omega

/-- The input as rows is the input re-laid. -/
theorem V_x (c : Dev nD) : (V m c main_v9 : S8192x4096.Idx → Elt F .f32)
    = shapeCast S8192x4096 (m ((c : Thread nD τ).loc main_arg0)) shapeCasts_S4x2048x4096_S8192x4096 := by
  show StableHlo.after hostOps0 (fun b => m (c, b)) (Proc.devRef .tc main_v9) = _
  after_results
  rfl

/-- The bias row is the bias re-laid. -/
theorem V_b (c : Dev nD) : (V m c main_v10 : S1x4096.Idx → Elt F .f32)
    = shapeCast S1x4096 (m ((c : Thread nD τ).loc main_arg3)) shapeCasts_S4096_S1x4096 := by
  show StableHlo.after hostOps0 (fun b => m (c, b)) (Proc.devRef .tc main_v10) = _
  after_results
  rfl

/-- The weight as the operations before the launch compute it from the codebook and the block numbers: negative
    numbers wrapped by the codebook's length, the codebook's rows (in the narrower float format) gathered, the
    gathered rows re-laid as a 4096 × 4096 matrix. -/
def weight (cb : (⟨S4096x8, .f32⟩ : BufTy).Contents (Elt F)) (ix : (⟨S2097152, .i32⟩ : BufTy).Contents (Elt F)) :
    (⟨S4096x4096, .bf16⟩ : BufTy).Contents (Elt F) :=
  shapeCast S4096x4096 (Host.gather gather_S4096x8_S2097152x1_S2097152x8_1_0_n_n_0_1_18 (truncf .bf16 cb bitsLt_bf16_f32)
    (broadcastInDim S2097152x1 ![0] bcast_S2097152_S2097152x1_0
      (select (cmpi .slt ix (broadcastInDim S2097152 ![] bcast_S_S2097152 (constantI S_ 32 0#32)))
        (addi ix (broadcastInDim S2097152 ![] bcast_S_S2097152 (constantI S_ 32 4096#32))) ix)))
    shapeCasts_S2097152x8_S4096x4096

theorem V_w (c : Dev nD) : (V m c main_v8 : S4096x4096.Idx → Elt F .bf16)
    = weight (m ((c : Thread nD τ).loc main_arg1)) (m ((c : Thread nD τ).loc main_arg2)) := by
  show StableHlo.after hostOps0 (fun b => m (c, b)) (Proc.devRef .tc main_v8) = _
  after_results
  rfl

end Cert.KernelIdeal.Blocks

end
-- ==== Proof.Acc.lean ====
/-
  The running block after every grid point, and the output block at a block's last step.

  Along the grid (contraction step innermost, 16 steps per output block) the body's running block is reset at a block's
  first step and otherwise carried over from the point before.  By induction on the point, after point `n` its
  entry `(r, q)` is the sum of the shares of contraction blocks `0, …, n % 16` of entry
  `(1024 (n / 32) + r, 2048 (n / 16 % 2) + q)` of `X · Wᵀ`: the reset contributes `0 + share 0`, every later step adds the
  next share (`Finset.sum_range_succ`).  At a last step, `n % 16 = 15`, all sixteen shares are there, their sum is
  the whole entry (`Spec.sum_share`), and the output block is that plus the bias.
-/
import proofs.«166751_j56427280335117_2_alg».proof.Proof.PiecesAt
import proofs.«166751_j56427280335117_2_alg».proof.Proof.Payload
import proofs.«166751_j56427280335117_2_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Spec

variable (m : (ℓ : Loc nD τ sig) → Buf (Elt Ideal) ℓ)

/-- The input as rows, the weight and the bias row, as the launch finds them. -/
abbrev X (c : Dev nD) : SX.Idx → EReal := V m c main_v9
abbrev W (c : Dev nD) : SW.Idx → EReal := V m c main_v8
abbrev B (c : Dev nD) : SB.Idx → EReal := V m c main_v10

/-! ## One step adds one share -/

theorem step_at (c : Dev nD) (t : Fin cfg0.N) (acc : FVec Ideal S1024x2048 .f32) (r : Fin 1024) (q : Fin 2048) :
    k0_pay2 (F := Ideal) (iblk m c 0 t) (iblk m c 1 t) acc (ix2 r q)
      = acc (ix2 r q) + share (X m c) (W m c) (rowOf (t.val / 32) r) (colOf (t.val / 16 % 2) q) (t.val % 16) := by
  refine (Payload.step_apply (iblk m c 0 t) (iblk m c 1 t) acc r q).trans ?_
  unfold share
  refine congrArg (acc (ix2 r q) + ·) (Finset.sum_congr rfl fun k _ => ?_)
  exact congrArg₂ (· * ·) (Blocks.xblk_apply m c t r k) (Blocks.wblk_apply m c t q k)

/-! ## The running block after point `n` -/

/-- The shares of contraction blocks `0, …, n % 16` of the entries of output block `(n / 32, n / 16 % 2)`. -/
def running (c : Dev nD) (n : ℕ) : FVec Ideal S1024x2048 .f32 := fun y =>
  ∑ j ∈ Finset.range (n % 16 + 1),
    share (X m c) (W m c) (rowOf (n / 32) ⟨(y 0).val, (y 0).isLt⟩) (colOf (n / 16 % 2) ⟨(y 1).val, (y 1).isLt⟩) j

theorem running_apply (c : Dev nD) (n : ℕ) (r : Fin 1024) (q : Fin 2048) :
    running m c n (ix2 r q)
      = ∑ j ∈ Finset.range (n % 16 + 1), share (X m c) (W m c) (rowOf (n / 32) r) (colOf (n / 16 % 2) q) j := rfl

theorem scratch_eq (c : Dev nD) : ∀ (n : ℕ) (h : n < cfg0.N), (outsAt0 m c n h).2 = running m c n := by
  intro n
  induction n with
  | zero =>
    intro h
    funext y
    obtain ⟨r, q, rfl⟩ : ∃ (r : Fin 1024) (q : Fin 2048), y = ix2 r q := ⟨y 0, y 1, eq_ix2 y⟩
    rw [PiecesAt.scratch_first m c ⟨0, h⟩ rfl (by show ¬(0 : ℕ) % 16 = 15; decide), running_apply]
    refine (step_at m c ⟨0, h⟩ _ r q).trans ?_
    rw [Payload.reset_apply, zero_add]
    exact (Finset.sum_range_one _).symm
  | succ n ih =>
    intro h
    have hN : n + 1 < 256 := lt_of_lt_of_eq h (show cfg0.N = 256 from N_0)
    funext y
    obtain ⟨r, q, rfl⟩ : ∃ (r : Fin 1024) (q : Fin 2048), y = ix2 r q := ⟨y 0, y 1, eq_ix2 y⟩
    rw [running_apply]
    by_cases h0 : (n + 1) % 16 = 0
    · rw [PiecesAt.scratch_first m c ⟨n + 1, h⟩ h0 (by show ¬(n + 1) % 16 = 15; omega)]
      refine (step_at m c ⟨n + 1, h⟩ _ r q).trans ?_
      rw [Payload.reset_apply, zero_add]
      show share _ _ _ _ ((n + 1) % 16) = ∑ j ∈ Finset.range ((n + 1) % 16 + 1), share _ _ _ _ j
      rw [h0]
      exact (Finset.sum_range_one _).symm
    · have key : (outsAt0 m c (n + 1) h).2
          = k0_pay2 (iblk m c 0 ⟨n + 1, h⟩) (iblk m c 1 ⟨n + 1, h⟩) (outsAt0 m c n (Nat.lt_of_succ_lt h)).2 := by
        by_cases h1 : (n + 1) % 16 = 15
        · exact PiecesAt.scratch_last m c ⟨n + 1, h⟩ h0 h1
        · exact PiecesAt.scratch_middle m c ⟨n + 1, h⟩ h0 h1
      rw [key, ih (Nat.lt_of_succ_lt h)]
      refine (step_at m c ⟨n + 1, h⟩ _ r q).trans ?_
      rw [running_apply]
      have e1 : (n + 1) / 32 = n / 32 := by omega
      have e2 : (n + 1) / 16 % 2 = n / 16 % 2 := by omega
      have e3 : (n + 1) % 16 = n % 16 + 1 := by omega
      show _ + share _ _ (rowOf ((n + 1) / 32) r) (colOf ((n + 1) / 16 % 2) q) ((n + 1) % 16)
        = ∑ j ∈ Finset.range ((n + 1) % 16 + 1), share _ _ (rowOf ((n + 1) / 32) r) (colOf ((n + 1) / 16 % 2) q) j
      rw [e1, e2, e3]
      exact (Finset.sum_range_succ _ _).symm

/-! ## The output block at a last step -/

theorem out_apply (c : Dev nD) (t : Fin cfg0.N) (h15 : t.val % 16 = 15) (r : Fin 1024) (q : Fin 2048) :
    (outsAt0 m c t.val t.isLt).1 (ix2 r q)
      = linearRows (X m c) (W m c) (B m c) (ix2 (rowOf (t.val / 32) r) (colOf (t.val / 16 % 2) q)) := by
  rw [PiecesAt.out_last m c t (by omega) h15, scratch_eq m c t.val t.isLt]
  refine (Payload.bias_apply (iblk m c 2 t) (running m c t.val) r q).trans ?_
  rw [running_apply, h15]
  show ∑ j ∈ Finset.range 16, share _ _ _ _ j + _ = rowDot _ _ _ _ + _
  rw [sum_share]
  exact congrArg (rowDot (X m c) (W m c) (rowOf (t.val / 32) r) (colOf (t.val / 16 % 2) q) + ·) (Blocks.bblk_apply m c t q)

end Cert.KernelIdeal.Acc

end
-- ==== Proof.Result.lean ====
/-
  The kernel's result array.

  The launch writes output block `(t / 32, t / 16 % 2)` back exactly at the block's last contraction step
  (`t % 16 = 15`), and what it writes there is `X · Wᵀ + b` at the block's rows and columns (module Acc).  The 16 output
  blocks tile the 8192 × 4096 array, so after the launch the whole array is `Spec.linearRows` of the arrays the launch
  found; the one operation after the launch re-lays those rows as [4, 2048, 4096].  Read at an index, with the input
  and the bias traced back through their own re-layings, the result is `Spec.linear` of the input, the reconstructed
  weight and the bias.
-/
import proofs.«166751_j56427280335117_2_alg».proof.Proof.Acc

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Spec

variable (m : (ℓ : Loc nD τ sig) → Buf (Elt Ideal) ℓ) (ρ : Dev nD → PrngReg)

/-- The result as rows. -/
abbrev rows (c : Dev nD) : Buf (Elt Ideal) ((c : Thread nD τ).loc main_v11) :=
  linearRows (Acc.X m c) (Acc.W m c) (Acc.B m c)

/-- What a write-back writes is the block of `rows` it is written to. -/
theorem flushed_eq (c : Dev nD) (t : Fin cfg0.N) (hf : (cfg0.win 3).flush t = true) :
    (dats m 0 c).flushed 3 t = ((cfg0.win 3).blk t).view.read (Elt Ideal) (rows m c) := by
  have h15 : t.val % 16 = 15 := (flush0_3 t).mp hf
  obtain ⟨-, -, -, -, -, -, e0, e1⟩ := Blocks.idx_facts t
  have hN : t.val < 256 := lt_of_lt_of_eq t.isLt (show cfg0.N = 256 from N_0)
  show (cfg0.win 3).cut (grid0.coords t) ((dats m 0 c).after 3 t) = _
  rw [after0_3]
  refine funext fun (y : S1024x2048.Idx) => ?_
  obtain ⟨r, q, rfl⟩ : ∃ (r : Fin 1024) (q : Fin 2048), y = ix2 r q := ⟨y 0, y 1, eq_ix2 y⟩
  have hr := r.isLt
  have hq := q.isLt
  refine (Acc.out_apply m c t h15 r q).trans ?_
  rw [View.read_apply]
  show linearRows _ _ _ _ = linearRows _ _ _ _
  congr 1
  funext a
  apply Fin.ext
  match a with
  | ⟨0, _⟩ => show (1024 * (t.val / 32) + r.val) % 8192 = win0_3.index t 0 * 1024 + 1 * r.val; rw [e0]; omega
  | ⟨1, _⟩ => show (2048 * (t.val / 16 % 2) + q.val) % 4096 = win0_3.index t 1 * 2048 + 1 * q.val; rw [e1]; omega

/-- Every entry of the array lies in the block of some last step. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 256 := N_0
  obtain ⟨t, ht⟩ : ∃ t : Fin cfg0.N, t.val = ((i 0).val / 1024 * 2 + (i 1).val / 2048) * 16 + 15 :=
    ⟨⟨((i 0).val / 1024 * 2 + (i 1).val / 2048) * 16 + 15, by rw [hN]; omega⟩, rfl⟩
  obtain ⟨-, -, -, -, -, -, e0, e1⟩ := Blocks.idx_facts t
  refine ⟨t, (flush0_3 t).mpr (by omega), ?_⟩
  show i ∈ ((View.whole main_v11).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 2048 ≤ (i 1).val ∧ (i 1).val < win0_3.index t (1 : Fin 2) * 2048 + 2048
    rw [e1]; omega

/-- The array after the launch. -/
theorem final (c : Dev nD) : (dats m 0 c).arrAt 3 cfg0.N = rows m c :=
  (dats m 0 c).arrAt_eq_of_cover 3 (rows m c) (flushed_eq m c) cover

/-- The result after the operation that follows the launch: the rows re-laid. -/
theorem tail_eq (c : Dev nD) :
    Pipeline.afterTail₀ cfgs (dats m) 0 (V0 m) [hostOps1] c main_v12
      = shapeCast S4x2048x4096 (rows m c) shapeCasts_S8192x4096_S4x2048x4096 := by
  unfold Pipeline.afterTail₀
  show StableHlo.after hostOps1 _ (Proc.devRef .tc main_v12) = _
  after_results
  have e : Pipeline.withArrays (cfgs 0).spec c (V0 m c) (fun w => (dats m 0 c).arrAt w (cfgs 0).N)
      (Proc.devRef .tc main_v11) = rows m c :=
    (Pipeline.withArrays_arr spec0 launch0.win.arr_inj c _ _ 3).trans (final m c)
  rw [e]
  rfl

/-- The input and the bias arguments, as functions into the extended reals. -/
abbrev xArg (c : Dev nD) : S3.Idx → EReal := m ((c : Thread nD τ).loc main_arg0)
abbrev biasArg (c : Dev nD) : S1.Idx → EReal := m ((c : Thread nD τ).loc main_arg3)

/-- Read at an index: the input and the bias traced back through their re-layings. -/
theorem relaid_eq (c : Dev nD) :
    shapeCast S4x2048x4096 (rows m c) shapeCasts_S8192x4096_S4x2048x4096 = linear (xArg m c) (Acc.W m c) (biasArg m c) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  have ho := o.isLt
  refine (shapeCast_apply (s := S8192x4096) (t := S4x2048x4096) (rows m c) shapeCasts_S8192x4096_S4x2048x4096 (ix3 b s o)
    (ix2 (⟨b.val * 2048 + s.val, by omega⟩ : Fin 8192) o) ?_).trans ?_
  · show (S8192x4096.rowMajor (ix2 (⟨b.val * 2048 + s.val, by omega⟩ : Fin 8192) o)).val = (S4x2048x4096.rowMajor (ix3 b s o)).val
    rewrite [Shape.rowMajor_val_two, Shape.rowMajor_val_three]
    rfl
  · show rowDot (Acc.X m c) (Acc.W m c) ⟨b.val * 2048 + s.val, _⟩ o + Acc.B m c (ix2 (0 : Fin 1) o)
      = (∑ k : Fin 4096, xArg m c (ix3 b s k) * Acc.W m c (ix2 o k)) + biasArg m c (ix1 o)
    unfold rowDot
    have ex : ∀ k : Fin 4096, Acc.X m c (ix2 (⟨b.val * 2048 + s.val, by omega⟩ : Fin 8192) k)
        = xArg m c (ix3 b s k) := fun k => by
      show (V m c main_v9 : S8192x4096.Idx → Elt Ideal .f32) _ = _
      rw [Blocks.V_x m c]
      exact shapeCast_apply (s := S4x2048x4096) (t := S8192x4096) _ shapeCasts_S4x2048x4096_S8192x4096 _ (ix3 b s k) (by
        show (S4x2048x4096.rowMajor (ix3 b s k)).val = (S8192x4096.rowMajor (ix2 (⟨b.val * 2048 + s.val, by omega⟩ : Fin 8192) k)).val
        rewrite [Shape.rowMajor_val_two, Shape.rowMajor_val_three]; rfl)
    have eb : Acc.B m c (ix2 (0 : Fin 1) o) = biasArg m c (ix1 o) := by
      show (V m c main_v10 : S1x4096.Idx → Elt Ideal .f32) _ = _
      rw [Blocks.V_b m c]
      exact shapeCast_apply (s := S4096) (t := S1x4096) _ shapeCasts_S4096_S1x4096 _ (ix1 o) (by
        show (S4096.rowMajor (ix1 o)).val = (S1x4096.rowMajor (ix2 (0 : Fin 1) o)).val
        rewrite [Shape.rowMajor_val_two, Shape.rowMajor_val_one]
        show o.val = 0 * 4096 + o.val
        omega)
    rw [eb]
    exact congrArg (· + _) (Finset.sum_congr rfl fun k _ => congrArg (· * _) (ex k))

/-- The kernel's run: the result array at `Spec.linear` of the arguments, the arguments unchanged. -/
theorem run : θ_run defs (onTc (τ := τ) (main (F := Ideal))) ⟨m, fun _ => 0, ρ⟩ fun r => ∀ c : Dev nD,
      r.2.mem ((c.tc : Thread nD τ).loc main_v12) = linear (xArg m c) (Acc.W m c) (biasArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v12 (Pipeline.mem_restRefs_of main_v12 (by decide) (by decide))).trans (tail_eq m c)).trans (relaid_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefSpec.lean ====
/-
  The reference computes `Spec.linear`.

  Its last stage adds the bias, repeated over the first two axes, to a contraction of the input's last axis with the
  second axis of the reconstructed weight: at `(b, s, o)` that is `∑ k, x (b, s, k) * W (o, k) + bias o`, where `W` is
  the reference's own reconstruction of the weight from the codebook.
-/
import proofs.«166751_j56427280335117_2_alg».proof.Proof.Gen.ReferenceIdeal.Read
import proofs.«166751_j56427280335117_2_alg».proof.Proof.Spec

noncomputable section

open scoped BigOperators
open Idealize.ShloMosaic Idealize.ShloMosaic.ValueIdx

namespace Cert.ReferenceIdeal.RefSpec

open Cert.ReferenceIdeal Cert.ReferenceIdeal.Read Cert.Spec

theorem result_eq (x0 : (⟨S4x2048x4096, .f32⟩ : BufTy).Contents (Elt Ideal)) (x1 : (⟨S4096x8, .f32⟩ : BufTy).Contents (Elt Ideal))
    (x2 : (⟨S2097152, .i32⟩ : BufTy).Contents (Elt Ideal)) (x3 : (⟨S4096, .f32⟩ : BufTy).Contents (Elt Ideal)) :
    val_main_v12 (F := Ideal) x0 x1 x2 x3 = linear x0 (val_main_v8 (F := Ideal) x1 x2) x3 := by
  funext i
  obtain ⟨b, s, o, rfl⟩ : ∃ (b : Fin 4) (s : Fin 2048) (o : Fin 4096), i = ix3 b s o := ⟨i 0, i 1, i 2, eq_ix3 i⟩
  rw [val_main_v12_apply, val_main_v9_apply, val_main_v11_apply, val_main_v10_apply]
  have el : ∀ k : Fin 4096, lidx_main_v9 (ix3 b s o) k = ix3 b s k := fun k => funext fun a => Fin.ext (by
    match a with | ⟨0, _⟩ => rfl | ⟨1, _⟩ => rfl | ⟨2, _⟩ => rfl)
  have er : ∀ k : Fin 4096, ridx_main_v9 (ix3 b s o) k = ix2 o k := fun k => funext fun a => Fin.ext (by
    match a with | ⟨0, _⟩ => rfl | ⟨1, _⟩ => rfl)
  have eb : idx_main_v10 (idx_main_v11 (ix3 b s o)) = ix1 o := funext fun a => Fin.ext (by
    match a with | ⟨0, _⟩ => rfl)
  simp only [el, er, eb]
  rfl

end Cert.ReferenceIdeal.RefSpec

end
-- ==== Proof.Weight.lean ====
/-
  Both programs reconstruct the same weight.

  Each gathers rows of the codebook by the same block numbers (negative numbers wrapped by the codebook's length
  first) and re-lays the gathered [2097152, 8] rows as a 4096 × 4096 matrix — one in a single step, the other through
  the flat vector of 16777216 entries: both read entry `(o, k)` at row `(4096 o + k) / 8`, position `(4096 o + k) % 8`
  of the gathered rows.  One program first changes the codebook's float format, which is the identity on the
  extended reals.
-/
import proofs.«166751_j56427280335117_2_alg».proof.Proof.Blocks
import proofs.«166751_j56427280335117_2_alg».proof.Proof.Gen.ReferenceIdeal.Read

noncomputable section

open Idealize.ShloMosaic Idealize.ShloMosaic.ValueIdx

namespace Cert.Weight

theorem weight_eq (cb : (⟨Cert.KernelIdeal.S4096x8, .f32⟩ : BufTy).Contents (Elt Ideal))
    (ix : (⟨Cert.KernelIdeal.S2097152, .i32⟩ : BufTy).Contents (Elt Ideal)) :
    (Cert.KernelIdeal.Blocks.weight (F := Ideal) cb ix : Cert.Spec.SW.Idx → EReal)
      = Cert.ReferenceIdeal.Read.val_main_v8 (F := Ideal) cb ix := by
  funext i
  obtain ⟨o, k, rfl⟩ : ∃ (o : Fin 4096) (k : Fin 4096), i = ix2 o k := ⟨i 0, i 1, eq_ix2 i⟩
  have ho := o.isLt
  have hk := k.isLt
  rw [Cert.ReferenceIdeal.Read.val_main_v8_apply, Cert.ReferenceIdeal.Read.val_main_v7_apply]
  unfold Cert.KernelIdeal.Blocks.weight
  refine (shapeCast_apply _ Cert.KernelIdeal.Facts₀.shapeCasts_S2097152x8_S4096x4096 (ix2 o k)
    (Cert.ReferenceIdeal.Read.idx_main_v7 (Cert.ReferenceIdeal.Read.idx_main_v8 (ix2 o k))) ?_).trans ?_
  · rewrite [Shape.rowMajor_val_two, Shape.rowMajor_val_two]
    show (o.val * 4096 + k.val) / 8 * 8 + (o.val * 4096 + k.val) % 8 = o.val * 4096 + k.val
    omega
  · rfl

end Cert.Weight

end
-- ==== Proof.lean ====
/-
  A linear layer whose weight is reconstructed from a codebook, computed two ways.

  Both programs gather rows of a 4096 × 8 codebook by 2,097,152 block numbers and re-lay the gathered rows as a
  4096 × 4096 weight `W`; both then return `out (b, s, o) = ∑ i, x (b, s, i) * W (o, i) + bias o`.  The reference takes
  the sum over `i` in one contraction.  The kernel works on the input as 8192 rows, in output blocks of 1024 × 2048, and
  for each output block walks the contraction axis in 16 steps of 256: a running block starts at zero, every step adds
  that step's 256-term products, and the last step adds the bias and writes the block out.  On the extended reals the
  changes of float format are the identity and addition is commutative and associative, so the 16 partial sums added
  in order onto zero are the whole sum — `Spec.sum_share`, an instance of `LibBlockSum.sum_range_blocks` — and the two
  results agree entry by entry.  No finiteness of the inputs is needed: nothing is cancelled or distributed.

  The modules: Spec (the function and the regrouping law), Pieces / PiecesAt (what one run of the body leaves),
  Payload (the body's three stored values at an index), Blocks (the body's input blocks as entries of the arrays, and
  those arrays as functions of the arguments), Acc (the running block after every grid point, by induction), Result
  (the output array, re-laid), RefSpec (the reference is the same function of its own weight), Weight (the two
  reconstructions of the weight agree).  The idealization rewrote nothing, so its correctness claim is trivial, and
  the three programs' runs terminate without fault and leave their arguments unchanged by the frame theorems and the
  reference's run.
-/
import proofs.«166751_j56427280335117_2_alg».proof.Defs
import proofs.«166751_j56427280335117_2_alg».proof.Proof.Gen.Kernel
import proofs.«166751_j56427280335117_2_alg».proof.Proof.Gen.Kernel.Skeleton
import proofs.«166751_j56427280335117_2_alg».proof.Proof.Gen.Kernel.Launch
import proofs.«166751_j56427280335117_2_alg».proof.Proof.Gen.Kernel.Points
import proofs.«166751_j56427280335117_2_alg».proof.Proof.Gen.Kernel.Frame
import proofs.«166751_j56427280335117_2_alg».proof.Proof.Gen.KernelIdeal
import proofs.«166751_j56427280335117_2_alg».proof.Proof.Gen.KernelIdeal.Skeleton
import proofs.«166751_j56427280335117_2_alg».proof.Proof.Gen.KernelIdeal.Launch
import proofs.«166751_j56427280335117_2_alg».proof.Proof.Gen.KernelIdeal.Points
import proofs.«166751_j56427280335117_2_alg».proof.Proof.Gen.KernelIdeal.Frame
import proofs.«166751_j56427280335117_2_alg».proof.Proof.Gen.ReferenceIdeal
import proofs.«166751_j56427280335117_2_alg».proof.Proof.Gen.Pre_finite_inputs
import proofs.«166751_j56427280335117_2_alg».proof.Proof.Gen.ReferenceIdeal.Run
import proofs.«166751_j56427280335117_2_alg».proof.Proof.Gen.ReferenceIdeal.Read
import proofs.«166751_j56427280335117_2_alg».proof.Proof.Result
import proofs.«166751_j56427280335117_2_alg».proof.Proof.RefSpec
import proofs.«166751_j56427280335117_2_alg».proof.Proof.Weight
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the reading over the extended reals. -/
theorem preserves : Cert.preserves_Kernel_KernelIdeal := trivial

/-- From arguments that agree both programs end with `Spec.linear` of the input, the reconstructed weight and the
    bias; the two reconstructions of the weight are one function of the codebook and the block numbers. -/
theorem algebraic : Cert.algebraic_KernelIdeal_ReferenceIdeal := by
  intro m ρ m' ρ' _ hagree
  refine ⟨fun c => Cert.Spec.linear (Cert.KernelIdeal.Result.xArg m c) (Cert.KernelIdeal.Acc.W m c)
    (Cert.KernelIdeal.Result.biasArg m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  have ew : Cert.KernelIdeal.Acc.W m c
      = Cert.ReferenceIdeal.Read.val_main_v8 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) :=
    (Cert.KernelIdeal.Blocks.V_w m c).trans (Cert.Weight.weight_eq _ _)
  rw [(hagree c).1, (hagree c).2.1, (hagree c).2.2.1, (hagree c).2.2.2]
  exact (Cert.ReferenceIdeal.Read.val_main_v12_eq _ _ _ _).trans
    ((Cert.ReferenceIdeal.RefSpec.result_eq _ _ _ _).trans
      (congrArg (fun w => Cert.Spec.linear (Cert.KernelIdeal.Result.xArg m c) w (Cert.KernelIdeal.Result.biasArg m c)) ew.symm))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
